-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x16 .f32) (main_arg9 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg8
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x600000 32) (main_arg2 : FVec F S600000 .f32) (main_arg3 : IVec S50000 32) (main_arg4 : FVec F S128x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S500x128 : Shape := ⟨2, ![500, 128]⟩
abbrev S50000x1 : Shape := ⟨2, ![50000, 1]⟩
abbrev S500 : Shape := ⟨1, ![500]⟩
abbrev S500x1 : Shape := ⟨2, ![500, 1]⟩
abbrev S1x16 : Shape := ⟨2, ![1, 16]⟩
abbrev S500x16 : Shape := ⟨2, ![500, 16]⟩

abbrev nBuf : Space → Nat
  | .hbm => 111
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S50000, .f32⟩
  | .hbm, ⟨19, _⟩ => ⟨S650000, .f32⟩
  | .hbm, ⟨20, _⟩ => ⟨S_, .f32⟩
  | .hbm, ⟨21, _⟩ => ⟨S50000, .f32⟩
  | .hbm, ⟨22, _⟩ => ⟨S650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000, .f32⟩
  | .hbm, ⟨44, _⟩ => ⟨S650000, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000, .f32⟩
  | .hbm, ⟨54, _⟩ => ⟨S650000, .f32⟩
  | .hbm, ⟨55, _⟩ => ⟨S50000x128, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x128, .f32⟩
  | .hbm, ⟨65, _⟩ => ⟨S650000x1, .f32⟩
  | .hbm, ⟨66, _⟩ => ⟨S650000x128, .f32⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000x128, .f32⟩
  | .hbm, ⟨84, _⟩ => ⟨S650000x1, .f32⟩
  | .hbm, ⟨85, _⟩ => ⟨S650000x128, .f32⟩
  | .hbm, ⟨86, _⟩ => ⟨S650000x128, .f32⟩
  | .hbm, ⟨87, _⟩ => ⟨S_, .f32⟩
  | .hbm, ⟨88, _⟩ => ⟨S50000x128, .f32⟩
  | .hbm, ⟨89, _⟩ => ⟨S650000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S_, .f32⟩
  | .hbm, ⟨94, _⟩ => ⟨S500x128, .f32⟩
  | .hbm, ⟨95, _⟩ => ⟨S50000x1, .i32⟩
  | .hbm, ⟨96, _⟩ => ⟨S500x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S500, .f32⟩
  | .hbm, ⟨101, _⟩ => ⟨S50000x1, .i32⟩
  | .hbm, ⟨102, _⟩ => ⟨S500, .f32⟩
  | .hbm, ⟨103, _⟩ => ⟨S_, .f32⟩
  | .hbm, ⟨104, _⟩ => ⟨S500, .f32⟩
  | .hbm, ⟨105, _⟩ => ⟨S500, .f32⟩
  | .hbm, ⟨106, _⟩ => ⟨S500x1, .f32⟩
  | .hbm, ⟨107, _⟩ => ⟨S500x128, .f32⟩
  | .hbm, ⟨108, _⟩ => ⟨S500x128, .f32⟩
  | .hbm, ⟨109, _⟩ => ⟨S1x16, .f32⟩
  | .hbm, ⟨110, _⟩ => ⟨S500x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S500x128, .f32⟩
  | .local _ .vmem, ⟨21, _⟩ => ⟨S128x16, .f32⟩
  | .local _ .vmem, ⟨22, _⟩ => ⟨S1x16, .f32⟩
  | .local _ .vmem, ⟨23, _⟩ => ⟨S500x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S500x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S500x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  shapeCasts_S16_S1x16 : S16.ShapeCasts S1x16
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S500x16 : S1x16.Broadcasts S500x16
  inb_S500x16_S500x16_0_0 : ∀ a, (![0, 0] : Fin 2 → Nat) a + S500x16.size a ≤ S500x16.size a
  h_S500x16 : 0 < S500x16.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x16_S500x16_1_0_0_1_n_n_wf : DotDims.WF S500x128 S128x16 S500x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S500x128.size a ≤ S500x128.size a
  hwx4_0 : ∀ i : grid4.Coords, EltTy.bits .f32 = 32 ∨ (Rect.block (s := S500x128) S500x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S500x16.size a ≤ S500x16.size a
  hwx4_3 : ∀ i : grid4.Coords, EltTy.bits .f32 = 32 ∨ (Rect.block (s := S500x16) S500x16.size (cc4_transform_3 i) (hinb4_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x16_S500x16_1_0_0_1_n_n : DotDims S500x128 S128x16 S500x16 where
  lhsContracting := [1]
  rhsContracting := [0]
  lhsNonContracting := [0]
  rhsNonContracting := [1]
  lhsBatch := []
  rhsBatch := []
  wf := dot_S500x128_S128x16_S500x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S500x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S500x16.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S500x128 : Shape := ⟨2, ![500, 128]⟩
abbrev S50000x1 : Shape := ⟨2, ![50000, 1]⟩
abbrev S500 : Shape := ⟨1, ![500]⟩
abbrev S500x1 : Shape := ⟨2, ![500, 1]⟩
abbrev S500x16 : Shape := ⟨2, ![500, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S50000, .f32⟩
  | .hbm, ⟨19, _⟩ => ⟨S650000, .f32⟩
  | .hbm, ⟨20, _⟩ => ⟨S_, .f32⟩
  | .hbm, ⟨21, _⟩ => ⟨S50000, .f32⟩
  | .hbm, ⟨22, _⟩ => ⟨S650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000, .f32⟩
  | .hbm, ⟨44, _⟩ => ⟨S650000, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000, .f32⟩
  | .hbm, ⟨54, _⟩ => ⟨S650000, .f32⟩
  | .hbm, ⟨55, _⟩ => ⟨S50000x128, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x128, .f32⟩
  | .hbm, ⟨65, _⟩ => ⟨S650000x1, .f32⟩
  | .hbm, ⟨66, _⟩ => ⟨S650000x128, .f32⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S650000, .i32⟩
  | .hbm, ⟨81, _⟩ => ⟨S650000, .i1⟩
  | .hbm, ⟨82, _⟩ => ⟨S_, .i32⟩
  | .hbm, ⟨83, _⟩ => ⟨S650000, .i32⟩
  | .hbm, ⟨84, _⟩ => ⟨S650000, .i32⟩
  | .hbm, ⟨85, _⟩ => ⟨S650000, .i32⟩
  | .hbm, ⟨86, _⟩ => ⟨S650000x1, .i32⟩
  | .hbm, ⟨87, _⟩ => ⟨S650000x128, .f32⟩
  | .hbm, ⟨88, _⟩ => ⟨S650000x1, .f32⟩
  | .hbm, ⟨89, _⟩ => ⟨S650000x128, .f32⟩
  | .hbm, ⟨90, _⟩ => ⟨S650000x128, .f32⟩
  | .hbm, ⟨91, _⟩ => ⟨S_, .f32⟩
  | .hbm, ⟨92, _⟩ => ⟨S50000x128, .f32⟩
  | .hbm, ⟨93, _⟩ => ⟨S650000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S500x128, .f32⟩
  | .hbm, ⟨103, _⟩ => ⟨S50000x1, .i32⟩
  | .hbm, ⟨104, _⟩ => ⟨S500x128, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S500, .f32⟩
  | .hbm, ⟨109, _⟩ => ⟨S50000x1, .i32⟩
  | .hbm, ⟨110, _⟩ => ⟨S500, .f32⟩
  | .hbm, ⟨111, _⟩ => ⟨S_, .f32⟩
  | .hbm, ⟨112, _⟩ => ⟨S500, .f32⟩
  | .hbm, ⟨113, _⟩ => ⟨S500, .f32⟩
  | .hbm, ⟨114, _⟩ => ⟨S500x1, .f32⟩
  | .hbm, ⟨115, _⟩ => ⟨S500x128, .f32⟩
  | .hbm, ⟨116, _⟩ => ⟨S500x128, .f32⟩
  | .hbm, ⟨117, _⟩ => ⟨S500x16, .f32⟩
  | .hbm, ⟨118, _⟩ => ⟨S1x16, .f32⟩
  | .hbm, ⟨119, _⟩ => ⟨S500x16, .f32⟩
  | .hbm, ⟨120, _⟩ => ⟨S500x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S16_S1x16_1 : S16.BroadcastsInDim S1x16 (![1] : Fin 1 → Fin S1x16.rank)
  bcast_S1x16_S500x16_0_1 : S1x16.BroadcastsInDim S500x16 (![0, 1] : Fin 2 → Fin S500x16.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x16_S500x16_1_0_0_1_n_n_wf : DotDims.WF S500x128 S128x16 S500x16 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x16_S500x16_1_0_0_1_n_n : DotDims S500x128 S128x16 S500x16 where
  lhsContracting := [1]
  rhsContracting := [0]
  lhsNonContracting := [0]
  rhsNonContracting := [1]
  lhsBatch := []
  rhsBatch := []
  wf := dot_S500x128_S128x16_S500x16_1_0_0_1_n_n_wf

class Facts : Prop extends Facts₀ where

variable [Facts]
-- ==== Proof.NamedRun.lean ====
/-
  The run of the whole program with its last buffer contents named.

  The program is eleven segments: stretches of host operations and five kernel regions. The contents of the
  TensorCore's buffers at each segment boundary form a fold from the launch memory (a host stretch applies its
  operations; a region leaves its arrays at what its write-backs produce and everything else as entered); the
  last boundary's contents are `W11`. Every weakly fair execution terminates, without a fault, in a state where
  each unscoped buffer holds `W11` at that buffer. The result array and the argument arrays are then read off
  `W11` by walking the fold back.
-/
import proofs.«123761_j33397665693792_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped TensorCore buffer at the last boundary's contents. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

end Cert.KernelIdeal.NamedRun

end
-- ==== Proof.RowBias.lean ====
/-
  A bias row added to every row of a [50000, 128] array, then the maximum with zero — as one function of the
  array and of the 1 x 128 row — and the same thing as the host spells it.

  The kernels take the bias as a 1 x 128 row obtained by viewing the length-128 bias vector as one row; the host
  reference instead places the vector along the columns of a 1 x 128 array, repeats that row 50000 times, adds,
  and takes the maximum with an array of zeros. Entry (r, q) of either is max (features r q + bias q) 0.
-/
import proofs.«123761_j33397665693792_1_alg».proof.Proof.Gen.KernelIdeal
import proofs.«123761_j33397665693792_1_alg».proof.Proof.Gen.ReferenceIdeal.Read
import Idealize.ShloMosaic.Lib.ValueIdx
import Idealize.ShloMosaic.Lib.Pipeline.Value
import Idealize.ShloMosaic.Lib.ValueLayout

noncomputable section

namespace Cert.KernelIdeal.RowBias

open Idealize.ShloMosaic Idealize.ShloMosaic.ValueIdx Cert.KernelIdeal Cert.KernelIdeal.Gen

/-- The one row's index in the column of `i`. -/
abbrev rowOf (i : S50000x128.Idx) : S1x128.Idx := ix2 (0 : Fin 1) (⟨(i 1).val, idx2_lt1 i⟩ : Fin 128)

/-- Entry i is max (features i + row (0, column of i)) 0. -/
def biasRectify (x : S50000x128.Idx → EReal) (row : S1x128.Idx → EReal) : S50000x128.Idx → EReal :=
  fun i => max (x i + row (rowOf i)) (Ideal.ofBits .f32 0x00000000#32)

/-- The bias vector viewed as one row, added to every row and rectified, is the host's spelling: the vector placed
    along the columns of a 1 x 128 array, that row repeated 50000 times, added, and the maximum taken with an array
    of zeros. Both read max (x i + bias (column of i)) 0 at every index i. -/
theorem biasRectify_eq_host (x : S50000x128.Idx → EReal) (bias : S128.Idx → EReal) :
    biasRectify x (shapeCast S1x128 bias shapeCasts_S128_S1x128)
      = maximumf (F := Ideal) (φ := .f32) (addf (F := Ideal) (φ := .f32) x (Cert.ReferenceIdeal.Read.val_main_v49 (F := Ideal) bias))
          (Cert.ReferenceIdeal.Read.val_main_call1_v0 (F := Ideal)) := by
  funext i
  show max (x i + shapeCast S1x128 bias shapeCasts_S128_S1x128 (rowOf i)) (Ideal.ofBits .f32 0x00000000#32)
    = max (x i + Cert.ReferenceIdeal.Read.val_main_v49 (F := Ideal) bias i) (Cert.ReferenceIdeal.Read.val_main_call1_v0 (F := Ideal) i)
  rw [Cert.ReferenceIdeal.Read.val_main_v49_apply, Cert.ReferenceIdeal.Read.val_main_v48_apply,
    Cert.ReferenceIdeal.Read.val_main_call1_v0_apply, Cert.ReferenceIdeal.Read.val_main_call1_cst_apply,
    shapeCast_a_1a_apply bias shapeCasts_S128_S1x128 (0 : Fin 1) (⟨(i 1).val, idx2_lt1 i⟩ : Fin 128)]
  have e : (ix1 (⟨(i 1).val, idx2_lt1 i⟩ : Fin 128) : S128.Idx)
      = Cert.ReferenceIdeal.Read.idx_main_v48 (Cert.ReferenceIdeal.Read.idx_main_v49 i) :=
    funext fun a => Fin.ext (by match a with | ⟨0, _⟩ => rfl)
  rw [e]
  rfl

end Cert.KernelIdeal.RowBias

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.Entries.lean ====
/-
  The five kernel bodies' arithmetic, read at one entry, at the ideal values (floats are extended reals,
  a change of float format is the identity).

  * the two 5000 x 128 matrix-product bodies: entry (p, c) of the block product is the sum over k of
    x p k * w k c (the operands are narrowed to bf16 first, which changes nothing here, and the
    accumulator is the zero word);
  * the two bias-and-rectify bodies: entry (p, q) is max (x p q + b 0 q) 0, the bias being a 1 x 128 row
    repeated down the rows;
  * the last body: entry (p, c) is the sum over k of x p k * w k c, plus the bias row's entry b 0 c.

  Each lemma holds of any vectors of the literal shapes; it is applied to the blocks a grid point stages.
-/
import proofs.«123761_j33397665693792_1_alg».proof.Proof.Gen.KernelIdeal.Skeleton
import proofs.«123761_j33397665693792_1_alg».proof.Proof.LibMatmulRowCol
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Entries

open Idealize.ShloMosaic Idealize.ShloMosaic.ValueIdx Cert.KernelIdeal Cert.KernelIdeal.Gen

/-! ## The dimension numbers: rows of the left operand against columns of the right -/

section BlockProduct

local notation "D" => dot_S5000x128_S128x128_S5000x128_1_0_0_1_n_n

theorem blockDot_l0 (i : S5000x128.Idx) (q : (D).contr.Idx) : ((D).lhsIdx i q 0).val = (i 0).val := by
  unfold DotDims.lhsIdx
  rw [dif_neg (show ¬(0 : Fin S5000x128.rank) ∈ (D).lhsBatch by decide), dif_pos (show (0 : Fin S5000x128.rank) ∈ (D).lhsNonContracting by decide)]
  rfl
theorem blockDot_l1 (i : S5000x128.Idx) (q : (D).contr.Idx) : ((D).lhsIdx i q 1).val = (q ⟨0, by decide⟩).val :=
  (D).lhsIdx_val_of_single rfl i q
theorem blockDot_r0 (i : S5000x128.Idx) (q : (D).contr.Idx) : ((D).rhsIdx i q 0).val = (q ⟨0, by decide⟩).val :=
  (D).rhsIdx_val_of_single rfl i q
theorem blockDot_r1 (i : S5000x128.Idx) (q : (D).contr.Idx) : ((D).rhsIdx i q 1).val = (i 1).val := by
  unfold DotDims.rhsIdx
  rw [dif_neg (show ¬(1 : Fin S128x128.rank) ∈ (D).rhsBatch by decide), dif_pos (show (1 : Fin S128x128.rank) ∈ (D).rhsNonContracting by decide)]
  rfl

/-- Entry (p, c) of a 5000 x 128 block times the 128 x 128 weights, into the zero accumulator. -/
theorem blockProduct_entry (x : FVec Ideal S5000x128 .f32) (w : FVec Ideal S128x128 .f32) (p : Fin 5000) (c : Fin 128) :
    matmul (D) none (truncf .bf16 x bitsLt_bf16_f32) (truncf .bf16 w bitsLt_bf16_f32) (constant S5000x128 .f32 0x00000000#32) (ix2 p c)
      = ∑ k : Fin 128, x (ix2 p k) * w (ix2 k c) :=
  Cert.LibMatmul.matmul_rowcol (M := 5000) (K := 128) (N := 128) (D) rfl rfl blockDot_l0 blockDot_l1 blockDot_r0 blockDot_r1
    (truncf .bf16 x bitsLt_bf16_f32) (truncf .bf16 w bitsLt_bf16_f32) p c

end BlockProduct

/-- The first layer's product body. -/
theorem pay0_entry (x : FVec Ideal S5000x128 .f32) (w : FVec Ideal S128x128 .f32) (p : Fin 5000) (c : Fin 128) :
    k0_pay1 (F := Ideal) x w (ix2 p c) = ∑ k : Fin 128, x (ix2 p k) * w (ix2 k c) :=
  blockProduct_entry x w p c

/-- The second layer's product body (its left operand passes through an identity shape cast first). -/
theorem pay2_entry (x : FVec Ideal S5000x128 .f32) (w : FVec Ideal S128x128 .f32) (p : Fin 5000) (c : Fin 128) :
    k2_pay1 (F := Ideal) x w (ix2 p c) = ∑ k : Fin 128, x (ix2 p k) * w (ix2 k c) := by
  unfold k2_pay1
  rw [shapeCast_self]
  exact blockProduct_entry x w p c

/-! ## A 1 x n row repeated down the rows -/

/-- A 1 x 128 row broadcast to 5000 x 128 reads the row's entry in the same column. -/
theorem rowBroadcast128_entry (b : FVec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- A 1 x 16 row broadcast to 500 x 16 reads the row's entry in the same column. -/
theorem rowBroadcast16_entry (b : FVec Ideal S1x16 .f32) (p : Fin 500) (q : Fin 16) :
    broadcastTo S500x16 b broadcasts_S1x16_S500x16 (ix2 p q) = b (ix2 (0 : Fin 1) q) :=
  broadcastTo_1b_ab_apply b broadcasts_S1x16_S500x16 p q

/-! ## Bias, then the maximum with zero -/

/-- The first layer's bias-and-rectify body. -/
theorem pay1_entry (x : FVec Ideal S5000x128 .f32) (b : FVec Ideal S1x128 .f32) (p : Fin 5000) (q : Fin 128) :
    k1_pay1 (F := Ideal) x b (ix2 p q) = max (x (ix2 p q) + b (ix2 (0 : Fin 1) q)) (Ideal.ofBits .f32 0x00000000#32) := by
  unfold k1_pay1
  rw [shapeCast_self, shapeCast_self]
  show max (x (ix2 p q) + broadcastTo S5000x128 b broadcasts_S1x128_S5000x128 (ix2 p q)) _ = _
  rw [rowBroadcast128_entry]
  rfl

/-- The second layer's bias-and-rectify body. -/
theorem pay3_entry (x : FVec Ideal S5000x128 .f32) (b : FVec Ideal S1x128 .f32) (p : Fin 5000) (q : Fin 128) :
    k3_pay1 (F := Ideal) x b (ix2 p q) = max (x (ix2 p q) + b (ix2 (0 : Fin 1) q)) (Ideal.ofBits .f32 0x00000000#32) := by
  unfold k3_pay1
  rw [shapeCast_self, shapeCast_self]
  show max (x (ix2 p q) + broadcastTo S5000x128 b broadcasts_S1x128_S5000x128 (ix2 p q)) _ = _
  rw [rowBroadcast128_entry]
  rfl

/-! ## The last body: 500 x 128 pooled features times 128 x 16 weights, plus the bias row -/

section Readout

local notation "E" => dot_S500x128_S128x16_S500x16_1_0_0_1_n_n

theorem readoutDot_l0 (i : S500x16.Idx) (q : (E).contr.Idx) : ((E).lhsIdx i q 0).val = (i 0).val := by
  unfold DotDims.lhsIdx
  rw [dif_neg (show ¬(0 : Fin S500x128.rank) ∈ (E).lhsBatch by decide), dif_pos (show (0 : Fin S500x128.rank) ∈ (E).lhsNonContracting by decide)]
  rfl
theorem readoutDot_l1 (i : S500x16.Idx) (q : (E).contr.Idx) : ((E).lhsIdx i q 1).val = (q ⟨0, by decide⟩).val :=
  (E).lhsIdx_val_of_single rfl i q
theorem readoutDot_r0 (i : S500x16.Idx) (q : (E).contr.Idx) : ((E).rhsIdx i q 0).val = (q ⟨0, by decide⟩).val :=
  (E).rhsIdx_val_of_single rfl i q
theorem readoutDot_r1 (i : S500x16.Idx) (q : (E).contr.Idx) : ((E).rhsIdx i q 1).val = (i 1).val := by
  unfold DotDims.rhsIdx
  rw [dif_neg (show ¬(1 : Fin S128x16.rank) ∈ (E).rhsBatch by decide), dif_pos (show (1 : Fin S128x16.rank) ∈ (E).rhsNonContracting by decide)]
  rfl

/-- Entry (p, c) of the readout product, into the zero accumulator. -/
theorem readoutProduct_entry (x : FVec Ideal S500x128 .f32) (w : FVec Ideal S128x16 .f32) (p : Fin 500) (c : Fin 16) :
    matmul (E) none (truncf .bf16 x bitsLt_bf16_f32) (truncf .bf16 w bitsLt_bf16_f32) (constant S500x16 .f32 0x00000000#32) (ix2 p c)
      = ∑ k : Fin 128, x (ix2 p k) * w (ix2 k c) :=
  Cert.LibMatmul.matmul_rowcol (M := 500) (K := 128) (N := 16) (E) rfl rfl readoutDot_l0 readoutDot_l1 readoutDot_r0 readoutDot_r1
    (truncf .bf16 x bitsLt_bf16_f32) (truncf .bf16 w bitsLt_bf16_f32) p c

end Readout

/-- The readout body. -/
theorem pay4_entry (x : FVec Ideal S500x128 .f32) (w : FVec Ideal S128x16 .f32) (b : FVec Ideal S1x16 .f32) (p : Fin 500) (c : Fin 16) :
    k4_pay1 (F := Ideal) x w b (ix2 p c) = (∑ k : Fin 128, x (ix2 p k) * w (ix2 k c)) + b (ix2 (0 : Fin 1) c) := by
  unfold k4_pay1
  rw [shapeCast_self, shapeCast_self]
  show matmul _ none (truncf .bf16 x bitsLt_bf16_f32) (truncf .bf16 w bitsLt_bf16_f32) (constant S500x16 .f32 0x00000000#32) (ix2 p c)
      + broadcastTo S500x16 b broadcasts_S1x16_S500x16 (ix2 p c) = _
  rw [rowBroadcast16_entry, readoutProduct_entry]

end Cert.KernelIdeal.Entries

end
-- ==== Proof.ProductLayer1.lean ====
/-
  The first layer's matrix-product region, as one whole-array product.

  The region's grid has ten points; point t stages rows 5000 t … 5000 t + 4999 of the left operand (all 128
  columns), the whole 128 x 128 weight matrix, and writes back rows 5000 t … 5000 t + 4999 of the result.
  Entry (p, c) of the block the body leaves is the sum over k of (left block) p k * (weights) k c, and row p of
  block t is row 5000 t + p of the array, so what point t writes back is block t of ONE whole-array function:
  the [50000, 128] x [128, 128] product of the two arrays as the region finds them. The ten blocks tile the
  result, so the array ends holding that product — which is what a single host dot_general of the two arrays
  computes, entry by entry, at the ideal values.
-/
import proofs.«123761_j33397665693792_1_alg».proof.Proof.Gen.KernelIdeal.Frame
import proofs.«123761_j33397665693792_1_alg».proof.Proof.Gen.ReferenceIdeal.Read
import proofs.«123761_j33397665693792_1_alg».proof.Proof.Entries

set_option maxRecDepth 16384

noncomputable section

namespace Cert.KernelIdeal.ProductLayer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the left operand's and the result's blocks move together down the rows,
    nothing moves along the columns, and the weights stay put. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the two arrays. -/
theorem flushed_eq (c : Dev nD) (t : Fin cfg0.N) :
    (dat0 V c).flushed 2 t = ((cfg0.win 2).blk t).view.read (Elt Ideal)
      (Cert.ReferenceIdeal.Read.val_main_v34 (F := Ideal) (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e21⟩ := index_facts t
  funext j
  obtain ⟨p, q, rfl⟩ : ∃ (p : Fin 5000) (q : Fin 128), j = ix2 p q := ⟨j 0, j 1, eq_ix2 j⟩
  refine (Entries.pay0_entry (iblk0 V c 0 t) (iblk0 V c 1 t) p q).trans ?_
  refine Eq.trans ?_ (Cert.ReferenceIdeal.Read.val_main_v34_apply (V c main_arg0) (V c main_arg4) (((cfg0.win 2).blk t).view.emb (ix2 p q))).symm
  refine Finset.sum_congr rfl fun k _ => ?_
  have h0 : ((cfg0.win 0).blk t).view.emb (ix2 p k)
      = Cert.ReferenceIdeal.Read.lidx_main_v34 (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = Cert.ReferenceIdeal.Read.ridx_main_v34 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_arg0) h0) (congrArg (V c main_arg4) h1)

/-- An index of the result is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row r lies in the block of the point whose row block is r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the host product of the two operand arrays as the region found them. -/
theorem array (c : Dev nD) :
    (dat0 V c).arrAt 2 cfg0.N = Cert.ReferenceIdeal.Read.val_main_v34 (F := Ideal) (V c main_arg0) (V c main_arg4) :=
  (dat0 V c).arrAt_eq_of_cover 2 _ (fun t _ => flushed_eq V c t) (covered)

end Cert.KernelIdeal.ProductLayer1

end
-- ==== Proof.RectifyLayer1.lean ====
/-
  The first layer's bias-and-rectify region, as one whole-array function.

  The region's grid has ten points; point t stages rows 5000 t … 5000 t + 4999 of the aggregated features (all
  128 columns) and the whole 1 x 128 bias row, and writes back the same rows of the result. Entry (p, q) of the
  block the body leaves is max (block p q + bias 0 q) 0, and row p of block t is row 5000 t + p of the array, so
  what point t writes back is block t of ONE whole-array function: bias added to every row, then the maximum
  with zero. The ten blocks tile the result, so the array ends holding that function of the two arrays as the
  region finds them.
-/
import proofs.«123761_j33397665693792_1_alg».proof.Proof.Gen.KernelIdeal.Frame
import proofs.«123761_j33397665693792_1_alg».proof.Proof.Entries
import proofs.«123761_j33397665693792_1_alg».proof.Proof.RowBias

set_option maxRecDepth 16384

noncomputable section

namespace Cert.KernelIdeal.RectifyLayer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the features' and the result's blocks move together down the rows,
    nothing moves along the columns, and the bias row stays put. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the ten row blocks is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole-array function. -/
theorem flushed_eq (c : Dev nD) (t : Fin cfg1.N) :
    (dat1 V c).flushed 2 t = ((cfg1.win 2).blk t).view.read (Elt Ideal)
      (Cert.KernelIdeal.RowBias.biasRectify (V c main_v47) (V c main_v48)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e00, e01, e10, e11, e21⟩ := index_facts t
  funext j
  obtain ⟨p, q, rfl⟩ : ∃ (p : Fin 5000) (q : Fin 128), j = ix2 p q := ⟨j 0, j 1, eq_ix2 j⟩
  refine (Entries.pay1_entry (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = Cert.KernelIdeal.RowBias.rowOf (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact congrArg₂ (fun a b : EReal => max (a + b) (Ideal.ofBits .f32 0x00000000#32)) (congrArg (V c main_v47) h0) (congrArg (V c main_v48) h1)

/-- An index of the result is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row r lies in the block of the point whose row block is r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array is the bias row added to every row of the features, then the maximum with zero. -/
theorem array (c : Dev nD) :
    (dat1 V c).arrAt 2 cfg1.N = Cert.KernelIdeal.RowBias.biasRectify (V c main_v47) (V c main_v48) :=
  (dat1 V c).arrAt_eq_of_cover 2 _ (fun t _ => flushed_eq V c t) (covered)

end Cert.KernelIdeal.RectifyLayer1

end
-- ==== Proof.ProductLayer2.lean ====
/-
  The second layer's matrix-product region, as one whole-array product.

  The region's grid has ten points; point t stages rows 5000 t … 5000 t + 4999 of the left operand (all 128
  columns), the whole 128 x 128 weight matrix, and writes back rows 5000 t … 5000 t + 4999 of the result.
  Entry (p, c) of the block the body leaves is the sum over k of (left block) p k * (weights) k c, and row p of
  block t is row 5000 t + p of the array, so what point t writes back is block t of ONE whole-array function:
  the [50000, 128] x [128, 128] product of the two arrays as the region finds them. The ten blocks tile the
  result, so the array ends holding that product — which is what a single host dot_general of the two arrays
  computes, entry by entry, at the ideal values.
-/
import proofs.«123761_j33397665693792_1_alg».proof.Proof.Gen.KernelIdeal.Frame
import proofs.«123761_j33397665693792_1_alg».proof.Proof.Gen.ReferenceIdeal.Read
import proofs.«123761_j33397665693792_1_alg».proof.Proof.Entries

set_option maxRecDepth 16384

noncomputable section

namespace Cert.KernelIdeal.ProductLayer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the left operand's and the result's blocks move together down the rows,
    nothing moves along the columns, and the weights stay put. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the ten row blocks is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product of the two arrays. -/
theorem flushed_eq (c : Dev nD) (t : Fin cfg2.N) :
    (dat2 V c).flushed 2 t = ((cfg2.win 2).blk t).view.read (Elt Ideal)
      (Cert.ReferenceIdeal.Read.val_main_v34 (F := Ideal) (V c main_v49) (V c main_arg6)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e00, e01, e10, e11, e21⟩ := index_facts t
  funext j
  obtain ⟨p, q, rfl⟩ : ∃ (p : Fin 5000) (q : Fin 128), j = ix2 p q := ⟨j 0, j 1, eq_ix2 j⟩
  refine (Entries.pay2_entry (iblk2 V c 0 t) (iblk2 V c 1 t) p q).trans ?_
  refine Eq.trans ?_ (Cert.ReferenceIdeal.Read.val_main_v34_apply (V c main_v49) (V c main_arg6) (((cfg2.win 2).blk t).view.emb (ix2 p q))).symm
  refine Finset.sum_congr rfl fun k _ => ?_
  have h0 : ((cfg2.win 0).blk t).view.emb (ix2 p k)
      = Cert.ReferenceIdeal.Read.lidx_main_v34 (((cfg2.win 2).blk t).view.emb (ix2 p q)) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q)
      = Cert.ReferenceIdeal.Read.ridx_main_v34 (((cfg2.win 2).blk t).view.emb (ix2 p q)) k := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (fun a b : EReal => a * b) (congrArg (V c main_v49) h0) (congrArg (V c main_arg6) h1)

/-- An index of the result is in point `t`'s block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Row r lies in the block of the point whose row block is r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is the host product of the two operand arrays as the region found them. -/
theorem array (c : Dev nD) :
    (dat2 V c).arrAt 2 cfg2.N = Cert.ReferenceIdeal.Read.val_main_v34 (F := Ideal) (V c main_v49) (V c main_arg6) :=
  (dat2 V c).arrAt_eq_of_cover 2 _ (fun t _ => flushed_eq V c t) (covered)

end Cert.KernelIdeal.ProductLayer2

end
-- ==== Proof.RectifyLayer2.lean ====
/-
  The second layer's bias-and-rectify region, as one whole-array function.

  The region's grid has ten points; point t stages rows 5000 t … 5000 t + 4999 of the aggregated features (all
  128 columns) and the whole 1 x 128 bias row, and writes back the same rows of the result. Entry (p, q) of the
  block the body leaves is max (block p q + bias 0 q) 0, and row p of block t is row 5000 t + p of the array, so
  what point t writes back is block t of ONE whole-array function: bias added to every row, then the maximum
  with zero. The ten blocks tile the result, so the array ends holding that function of the two arrays as the
  region finds them.
-/
import proofs.«123761_j33397665693792_1_alg».proof.Proof.Gen.KernelIdeal.Frame
import proofs.«123761_j33397665693792_1_alg».proof.Proof.Entries
import proofs.«123761_j33397665693792_1_alg».proof.Proof.RowBias

set_option maxRecDepth 16384

noncomputable section

namespace Cert.KernelIdeal.RectifyLayer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the features' and the result's blocks move together down the rows,
    nothing moves along the columns, and the bias row stays put. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every one of the ten row blocks is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole-array function. -/
theorem flushed_eq (c : Dev nD) (t : Fin cfg3.N) :
    (dat3 V c).flushed 2 t = ((cfg3.win 2).blk t).view.read (Elt Ideal)
      (Cert.KernelIdeal.RowBias.biasRectify (V c main_v63) (V c main_v64)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e00, e01, e10, e11, e21⟩ := index_facts t
  funext j
  obtain ⟨p, q, rfl⟩ : ∃ (p : Fin 5000) (q : Fin 128), j = ix2 p q := ⟨j 0, j 1, eq_ix2 j⟩
  refine (Entries.pay3_entry (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = Cert.KernelIdeal.RowBias.rowOf (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact congrArg₂ (fun a b : EReal => max (a + b) (Ideal.ofBits .f32 0x00000000#32)) (congrArg (V c main_v63) h0) (congrArg (V c main_v64) h1)

/-- An index of the result is in point `t`'s block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

/-- Row r lies in the block of the point whose row block is r / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the result array is the bias row added to every row of the features, then the maximum with zero. -/
theorem array (c : Dev nD) :
    (dat3 V c).arrAt 2 cfg3.N = Cert.KernelIdeal.RowBias.biasRectify (V c main_v63) (V c main_v64) :=
  (dat3 V c).arrAt_eq_of_cover 2 _ (fun t _ => flushed_eq V c t) (covered)

end Cert.KernelIdeal.RectifyLayer2

end
-- ==== Proof.Readout.lean ====
/-
  The readout region, as one whole-array function.

  The region's grid is a single point: it stages the whole 500 x 128 array of pooled features, the whole
  128 x 16 weight matrix and the whole 1 x 16 bias row, and writes back the whole 500 x 16 result. Entry (p, c) of
  what the body leaves is the sum over k of pooled p k * weights k c, plus bias 0 c. The one block is the whole
  array, so the result array ends holding that function of the three arrays as the region finds them.
-/
import proofs.«123761_j33397665693792_1_alg».proof.Proof.Gen.KernelIdeal.Frame
import proofs.«123761_j33397665693792_1_alg».proof.Proof.Gen.ReferenceIdeal.Read
import proofs.«123761_j33397665693792_1_alg».proof.Proof.Entries

set_option maxRecDepth 16384

noncomputable section

namespace Cert.KernelIdeal.Readout

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The bias row's index in the column of `i`. -/
abbrev rowOf (i : S500x16.Idx) : S1x16.Idx := ix2 (0 : Fin 1) (⟨(i 1).val, idx2_lt1 i⟩ : Fin 16)

/-- Entry i = (p, c) is the sum over k of pooled p k * weights k c, plus the bias row at column c. -/
def linear (a : S500x128.Idx → EReal) (w : S128x16.Idx → EReal) (row : S1x16.Idx → EReal) : S500x16.Idx → EReal :=
  fun i => (∑ k : Fin 128, a (Cert.ReferenceIdeal.Read.lidx_main_v82 i k) * w (Cert.ReferenceIdeal.Read.ridx_main_v82 i k)) + row (rowOf i)

-- the buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps at the one grid point: every window's block is the block at the origin. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one point writes back is the whole-array function read through the (whole) block. -/
theorem flushed_eq (c : Dev nD) (t : Fin cfg4.N) :
    (dat4 V c).flushed 3 t = ((cfg4.win 3).blk t).view.read (Elt Ideal)
      (linear (V c main_v77) (V c main_arg8) (V c main_v78)) := by
  show (cfg4.win 3).cut (grid4.coords t) ((dat4 V c).after 3 t) = _
  rw [after4_3]
  unfold out4_3
  rw [View.canon_unit_zero zero_offsets]
  simp only [View.ld_unit_zero (S := S500x128) zero_offsets, View.ld_unit_zero (S := S128x16) zero_offsets, View.ld_unit_zero (S := S1x16) zero_offsets]
  obtain ⟨e00, e01, e10, e11, e20, e21, e30, e31⟩ := index_facts t
  funext j
  obtain ⟨p, q, rfl⟩ : ∃ (p : Fin 500) (q : Fin 16), j = ix2 p q := ⟨j 0, j 1, eq_ix2 j⟩
  refine (Entries.pay4_entry (iblk4 V c 0 t) (iblk4 V c 1 t) (iblk4 V c 2 t) p q).trans ?_
  have h0 : ∀ k : Fin 128, ((cfg4.win 0).blk t).view.emb (ix2 p k)
      = Cert.ReferenceIdeal.Read.lidx_main_v82 (((cfg4.win 3).blk t).view.emb (ix2 p q)) k := fun k => by
    funext a; apply Fin.ext
    match a with
    | ⟨0, _⟩ => show win4_0.index t (0 : Fin 2) * 500 + 1 * p.val = win4_3.index t (0 : Fin 2) * 500 + 1 * p.val; omega
    | ⟨1, _⟩ => show win4_0.index t (1 : Fin 2) * 128 + 1 * k.val = k.val; omega
  have h1 : ∀ k : Fin 128, ((cfg4.win 1).blk t).view.emb (ix2 k q)
      = Cert.ReferenceIdeal.Read.ridx_main_v82 (((cfg4.win 3).blk t).view.emb (ix2 p q)) k := fun k => by
    funext a; apply Fin.ext
    match a with
    | ⟨0, _⟩ => show win4_1.index t (0 : Fin 2) * 128 + 1 * k.val = k.val; omega
    | ⟨1, _⟩ => show win4_1.index t (1 : Fin 2) * 16 + 1 * q.val = win4_3.index t (1 : Fin 2) * 16 + 1 * q.val; omega
  have h2 : ((cfg4.win 2).blk t).view.emb (ix2 (0 : Fin 1) q) = rowOf (((cfg4.win 3).blk t).view.emb (ix2 p q)) := by
    funext a; apply Fin.ext
    match a with
    | ⟨0, _⟩ => show win4_2.index t (0 : Fin 2) * 1 + 1 * 0 = 0; omega
    | ⟨1, _⟩ => show win4_2.index t (1 : Fin 2) * 16 + 1 * q.val = win4_3.index t (1 : Fin 2) * 16 + 1 * q.val; omega
  exact congrArg₂ (fun a b : EReal => a + b)
    (Finset.sum_congr rfl fun k _ => congrArg₂ (fun a b : EReal => a * b) (congrArg (V c main_v77) (h0 k)) (congrArg (V c main_arg8) (h1 k)))
    (congrArg (V c main_v78) h2)

/-- An index of the result is in the point's block iff each coordinate is in the block's range on its axis. -/
theorem mem_block (t : Fin cfg4.N) (i : S500x16.Idx) :
    i ∈ ((cfg4.win 3).blk t).view.set ↔ ∀ a : Fin 2, win4_3.index t a * S500x16.size a ≤ (i a).val ∧ (i a).val < win4_3.index t a * S500x16.size a + S500x16.size a := by
  show i ∈ ((View.whole main_v79).slice (win4_3.rect t)).set ↔ _
  rw [View.set_slice_whole, Rect.mem_set_unit]
  exact Iff.rfl

/-- The one block is the whole array. -/
theorem covered (i : S500x16.Idx) :
    ∃ t : Fin cfg4.N, (cfg4.win 3).flush t = true ∧ i ∈ ((cfg4.win 3).blk t).view.set := by
  have hi0 : (i 0).val < 500 := (i 0).isLt
  have hi1 : (i 1).val < 16 := (i 1).isLt
  obtain ⟨e00, e01, e10, e11, e20, e21, e30, e31⟩ := index_facts t4_0
  refine ⟨t4_0, flush4_3 t4_0, ?_⟩
  rw [mem_block]
  intro a
  match a with
  | ⟨0, _⟩ => show win4_3.index t4_0 (0 : Fin 2) * 500 ≤ (i 0).val ∧ (i 0).val < win4_3.index t4_0 (0 : Fin 2) * 500 + 500; omega
  | ⟨1, _⟩ => show win4_3.index t4_0 (1 : Fin 2) * 16 ≤ (i 1).val ∧ (i 1).val < win4_3.index t4_0 (1 : Fin 2) * 16 + 16; omega

/-- After the region the result array is the pooled features times the weights, plus the bias row on every row. -/
theorem array (c : Dev nD) :
    (dat4 V c).arrAt 3 cfg4.N = linear (V c main_v77) (V c main_arg8) (V c main_v78) :=
  (dat4 V c).arrAt_eq_of_cover 3 _ (fun t _ => flushed_eq V c t) (covered)

end Cert.KernelIdeal.Readout

end
-- ==== Proof.Fold.lean ====
/-
  The result array, read back through the whole program.

  The buffer contents at the segment boundaries form a fold: a host stretch applies its operations, a kernel
  region leaves its arrays at what its write-backs produce and every other buffer as entered. Walking that fold
  back from the last boundary, with each region's result in closed form:

    the degree normalisation, the edge lists with self loops and the per-edge weights are host operations of
    the arguments, the same operations the reference applies;
    layer 1: the product region leaves x · W1 (one whole product); the host gathers rows by source node, scales
    by the edge weight and adds them into the rows of the destination nodes; the rectify region leaves
    max (that + b1, 0);
    layer 2: the same with W2, b2 on layer 1's output;
    pooling: the host adds the rows of each graph's nodes and divides by the node count (at least one);
    readout: the last region leaves pooled · Wfc + bfc.

  Each boundary's buffer is shown equal to the reference program's stage of the same name-for-name host
  operations, as a function of the launch arguments; a region's closed form meets the reference's dot_general,
  add and maximum at the point where the two programs differ.
-/
import proofs.«123761_j33397665693792_1_alg».proof.Proof.Gen.KernelIdeal.Frame
import proofs.«123761_j33397665693792_1_alg».proof.Proof.Gen.ReferenceIdeal.Read
import proofs.«123761_j33397665693792_1_alg».proof.Proof.RowBias
import proofs.«123761_j33397665693792_1_alg».proof.Proof.ProductLayer1
import proofs.«123761_j33397665693792_1_alg».proof.Proof.RectifyLayer1
import proofs.«123761_j33397665693792_1_alg».proof.Proof.ProductLayer2
import proofs.«123761_j33397665693792_1_alg».proof.Proof.RectifyLayer2
import proofs.«123761_j33397665693792_1_alg».proof.Proof.Readout
import Idealize.ShloMosaic.Lib.StableHlo.Run
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg) (c : Dev nD)

/-- A buffer after a stretch of host operations is the operations' term over the contents the stretch started from. -/
macro "stretch" : tactic => `(tactic| (
  dsimp only [W3, W2, W1, W5, W8, W10, hostOps0, hostOps0_1, hostOps0_2, hostOps1, hostOps3, hostOps4]
  after_results_simp))

-- the launch arguments on core c
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## Before the first region: the graph's normalisation, as the reference computes it -/

theorem W3_arg0 : W3 m ρ c (Proc.devRef .tc main_arg0) = x0 := by stretch <;> rfl
theorem W3_arg3 : W3 m ρ c (Proc.devRef .tc main_arg3) = x3 := by stretch <;> rfl
theorem W3_arg4 : W3 m ρ c (Proc.devRef .tc main_arg4) = x4 := by stretch <;> rfl
theorem W3_arg5 : W3 m ρ c (Proc.devRef .tc main_arg5) = x5 := by stretch <;> rfl
theorem W3_arg6 : W3 m ρ c (Proc.devRef .tc main_arg6) = x6 := by stretch <;> rfl
theorem W3_arg7 : W3 m ρ c (Proc.devRef .tc main_arg7) = x7 := by stretch <;> rfl
theorem W3_arg8 : W3 m ρ c (Proc.devRef .tc main_arg8) = x8 := by stretch <;> rfl
theorem W3_arg9 : W3 m ρ c (Proc.devRef .tc main_arg9) = x9 := by stretch <;> rfl

/-- The source nodes, self loops appended. -/
theorem W3_v3 : W3 m ρ c (Proc.devRef .tc main_v3) = Cert.ReferenceIdeal.Read.val_main_v3 (F := Ideal) x1 := by
  stretch <;> rfl
/-- The destination nodes, self loops appended. -/
theorem W3_v6 : W3 m ρ c (Proc.devRef .tc main_v6) = Cert.ReferenceIdeal.Read.val_main_v6 (F := Ideal) x1 := by
  stretch <;> rfl
/-! The degree's reciprocal square root, guarded (the `where` of the source, a called function): a select among the
    comparison degree > 0, the reciprocal root and the zero constant, all three computed by the first stretch. -/

theorem W2_v3 : W2 m ρ c (Proc.devRef .tc main_v3) = Cert.ReferenceIdeal.Read.val_main_v3 (F := Ideal) x1 := by
  stretch <;> rfl
theorem W2_v6 : W2 m ρ c (Proc.devRef .tc main_v6) = Cert.ReferenceIdeal.Read.val_main_v6 (F := Ideal) x1 := by
  stretch <;> rfl
theorem W2_v8 : W2 m ρ c (Proc.devRef .tc main_v8) = Cert.ReferenceIdeal.Read.val_main_v8 (F := Ideal) x2 := by
  stretch <;> rfl
theorem W1_v13 : W1 m ρ c (Proc.devRef .tc main_v13) = Cert.ReferenceIdeal.Read.val_main_v13 (F := Ideal) x1 x2 := by
  stretch <;> rfl
theorem W1_v16 : W1 m ρ c (Proc.devRef .tc main_v16) = Cert.ReferenceIdeal.Read.val_main_v16 (F := Ideal) x1 x2 := by
  stretch <;> rfl
theorem W1_cst_3 : W1 m ρ c (Proc.devRef .tc main_cst_3) = Cert.ReferenceIdeal.Read.val_main_cst_3 (F := Ideal) := by
  stretch <;> rfl

/-- 1 / sqrt (max (degree, tiny)) where the degree is positive, zero elsewhere: the called function's select applied to
    those three values is the reference's select applied to them, whatever the three values are. -/
theorem W2_v17 : W2 m ρ c (Proc.devRef .tc main_v17) = Cert.ReferenceIdeal.Read.val_main_v17 (F := Ideal) x1 x2 := by
  have h13 := W1_v13 m ρ c
  have h16 := W1_v16 m ρ c
  have hc3 := W1_cst_3 m ρ c
  show StableHlo.after hostOps0_1 (W1 m ρ c) (Proc.devRef .tc main_v17) = _
  generalize W1 m ρ c = V1 at h13 h16 hc3 ⊢
  dsimp only [hostOps0_1]
  after_results_simp
  rw [h13, h16, hc3]
  unfold Cert.ReferenceIdeal.Read.val_main_v17 Cert.ReferenceIdeal.Read.val_main_call0_v1 Cert.ReferenceIdeal.Read.val_main_call0_v0
  generalize Cert.ReferenceIdeal.Read.val_main_v13 (F := Ideal) x1 x2 = a13
  generalize Cert.ReferenceIdeal.Read.val_main_v16 (F := Ideal) x1 x2 = a16
  generalize Cert.ReferenceIdeal.Read.val_main_cst_3 (F := Ideal) = a3
  rfl

/-- The normalised edge weights: the reciprocal roots gathered at both ends of each edge, times the edge weight. -/
theorem W3_v33 : W3 m ρ c (Proc.devRef .tc main_v33) = Cert.ReferenceIdeal.Read.val_main_v33 (F := Ideal) x1 x2 := by
  have h3 := W2_v3 m ρ c
  have h6 := W2_v6 m ρ c
  have h8 := W2_v8 m ρ c
  have h17 := W2_v17 m ρ c
  show StableHlo.after hostOps0_2 (W2 m ρ c) (Proc.devRef .tc main_v33) = _
  generalize W2 m ρ c = V2 at h3 h6 h8 h17 ⊢
  dsimp only [hostOps0_2]
  after_results_simp
  rw [h3, h6, h8, h17]
  rfl

/-! ## Buffers that ride along: neither a region's array nor written by a later host stretch -/

/-- Past the first region. -/
theorem past_region0 (b : Ref sig .tc) (h0 : ∀ w, Pipeline.arrRef spec0 w ≠ b) :
    W4 m ρ c (Proc.devRef .tc b) = W3 m ρ c (Proc.devRef .tc b) := W4_of_ne m ρ c b h0

/-- From the first region's exit to the third region's exit: the gather/scatter stretch of layer 1 and the two regions
    after it. -/
theorem past_layer1 (b : Ref sig .tc) (h1 : ∀ w, Pipeline.arrRef spec1 w ≠ b) (h2 : ∀ w, Pipeline.arrRef spec2 w ≠ b)
    (hw : ∀ op ∈ (hostOps1 : List (HloOp τ sig (Elt Ideal))), Proc.devRef .tc b ∉ op.writes) :
    W7 m ρ c (Proc.devRef .tc b) = W4 m ρ c (Proc.devRef .tc b) :=
  (W7_of_ne m ρ c b h2).trans ((W6_of_ne m ρ c b h1).trans (StableHlo.after_of_forall_not_mem _ _ hw))

/-- From the third region's exit to the fourth region's exit: the gather/scatter stretch of layer 2 and the region
    after it. -/
theorem past_layer2 (b : Ref sig .tc) (h3 : ∀ w, Pipeline.arrRef spec3 w ≠ b)
    (hw : ∀ op ∈ (hostOps3 : List (HloOp τ sig (Elt Ideal))), Proc.devRef .tc b ∉ op.writes) :
    W9 m ρ c (Proc.devRef .tc b) = W7 m ρ c (Proc.devRef .tc b) :=
  (W9_of_ne m ρ c b h3).trans (StableHlo.after_of_forall_not_mem _ _ hw)

/-- No operation of a literal stretch writes the reference (the hypothesis the three lemmas above take). -/
macro "nowhere_written" ops:ident : term => `(List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W4_v3 : W4 m ρ c (Proc.devRef .tc main_v3) = Cert.ReferenceIdeal.Read.val_main_v3 (F := Ideal) x1 :=
  (past_region0 m ρ c main_v3 (by decide)).trans (W3_v3 m ρ c)
theorem W4_v6 : W4 m ρ c (Proc.devRef .tc main_v6) = Cert.ReferenceIdeal.Read.val_main_v6 (F := Ideal) x1 :=
  (past_region0 m ρ c main_v6 (by decide)).trans (W3_v6 m ρ c)
theorem W4_v33 : W4 m ρ c (Proc.devRef .tc main_v33) = Cert.ReferenceIdeal.Read.val_main_v33 (F := Ideal) x1 x2 :=
  (past_region0 m ρ c main_v33 (by decide)).trans (W3_v33 m ρ c)
theorem W4_arg3 : W4 m ρ c (Proc.devRef .tc main_arg3) = x3 := (past_region0 m ρ c main_arg3 (by decide)).trans (W3_arg3 m ρ c)
theorem W4_arg5 : W4 m ρ c (Proc.devRef .tc main_arg5) = x5 := (past_region0 m ρ c main_arg5 (by decide)).trans (W3_arg5 m ρ c)
theorem W4_arg6 : W4 m ρ c (Proc.devRef .tc main_arg6) = x6 := (past_region0 m ρ c main_arg6 (by decide)).trans (W3_arg6 m ρ c)
theorem W4_arg7 : W4 m ρ c (Proc.devRef .tc main_arg7) = x7 := (past_region0 m ρ c main_arg7 (by decide)).trans (W3_arg7 m ρ c)
theorem W4_arg8 : W4 m ρ c (Proc.devRef .tc main_arg8) = x8 := (past_region0 m ρ c main_arg8 (by decide)).trans (W3_arg8 m ρ c)
theorem W4_arg9 : W4 m ρ c (Proc.devRef .tc main_arg9) = x9 := (past_region0 m ρ c main_arg9 (by decide)).trans (W3_arg9 m ρ c)

theorem W7_v3 : W7 m ρ c (Proc.devRef .tc main_v3) = Cert.ReferenceIdeal.Read.val_main_v3 (F := Ideal) x1 :=
  (past_layer1 m ρ c main_v3 (by decide) (by decide) (nowhere_written hostOps1)).trans (W4_v3 m ρ c)
theorem W7_v6 : W7 m ρ c (Proc.devRef .tc main_v6) = Cert.ReferenceIdeal.Read.val_main_v6 (F := Ideal) x1 :=
  (past_layer1 m ρ c main_v6 (by decide) (by decide) (nowhere_written hostOps1)).trans (W4_v6 m ρ c)
theorem W7_v33 : W7 m ρ c (Proc.devRef .tc main_v33) = Cert.ReferenceIdeal.Read.val_main_v33 (F := Ideal) x1 x2 :=
  (past_layer1 m ρ c main_v33 (by decide) (by decide) (nowhere_written hostOps1)).trans (W4_v33 m ρ c)
theorem W7_arg3 : W7 m ρ c (Proc.devRef .tc main_arg3) = x3 :=
  (past_layer1 m ρ c main_arg3 (by decide) (by decide) (nowhere_written hostOps1)).trans (W4_arg3 m ρ c)
theorem W7_arg7 : W7 m ρ c (Proc.devRef .tc main_arg7) = x7 :=
  (past_layer1 m ρ c main_arg7 (by decide) (by decide) (nowhere_written hostOps1)).trans (W4_arg7 m ρ c)
theorem W7_arg8 : W7 m ρ c (Proc.devRef .tc main_arg8) = x8 :=
  (past_layer1 m ρ c main_arg8 (by decide) (by decide) (nowhere_written hostOps1)).trans (W4_arg8 m ρ c)
theorem W7_arg9 : W7 m ρ c (Proc.devRef .tc main_arg9) = x9 :=
  (past_layer1 m ρ c main_arg9 (by decide) (by decide) (nowhere_written hostOps1)).trans (W4_arg9 m ρ c)

theorem W9_arg3 : W9 m ρ c (Proc.devRef .tc main_arg3) = x3 :=
  (past_layer2 m ρ c main_arg3 (by decide) (nowhere_written hostOps3)).trans (W7_arg3 m ρ c)
theorem W9_arg8 : W9 m ρ c (Proc.devRef .tc main_arg8) = x8 :=
  (past_layer2 m ρ c main_arg8 (by decide) (nowhere_written hostOps3)).trans (W7_arg8 m ρ c)
theorem W9_arg9 : W9 m ρ c (Proc.devRef .tc main_arg9) = x9 :=
  (past_layer2 m ρ c main_arg9 (by decide) (nowhere_written hostOps3)).trans (W7_arg9 m ρ c)

/-! ## Layer 1 -/

/-- The first region leaves x · W1. -/
theorem W4_v34 : W4 m ρ c (Proc.devRef .tc main_v34) = Cert.ReferenceIdeal.Read.val_main_v34 (F := Ideal) x0 x4 := by
  refine ((W4_arr m ρ c 2).trans (ProductLayer1.array (V3 m ρ) c)).trans ?_
  show Cert.ReferenceIdeal.Read.val_main_v34 (F := Ideal) (W3 m ρ c (Proc.devRef .tc main_arg0)) (W3 m ρ c (Proc.devRef .tc main_arg4)) = _
  rw [W3_arg0, W3_arg4]

/-- The host gathers rows of x · W1 by source node, scales them by the edge weights and adds them into the
    destination nodes' rows: the reference's operations on the same operands. -/
theorem W5_v47 : W5 m ρ c (Proc.devRef .tc main_v47) = Cert.ReferenceIdeal.Read.val_main_v47 (F := Ideal) x0 x1 x2 x4 := by
  have h34 := W4_v34 m ρ c
  have h3 := W4_v3 m ρ c
  have h6 := W4_v6 m ρ c
  have h33 := W4_v33 m ρ c
  show StableHlo.after hostOps1 (W4 m ρ c) (Proc.devRef .tc main_v47) = _
  generalize W4 m ρ c = V4 at h34 h3 h6 h33 ⊢
  dsimp only [hostOps1]
  after_results_simp
  rw [h34, h3, h6, h33]
  rfl

/-- The bias vector of layer 1, viewed as one row. -/
theorem W5_v48 : W5 m ρ c (Proc.devRef .tc main_v48) = shapeCast S1x128 x5 shapeCasts_S128_S1x128 := by
  have h5 := W4_arg5 m ρ c
  show StableHlo.after hostOps1 (W4 m ρ c) (Proc.devRef .tc main_v48) = _
  generalize W4 m ρ c = V4 at h5 ⊢
  dsimp only [hostOps1]
  after_results_simp
  rw [h5]
  rfl

/-- The second region leaves max (aggregate + b1, 0): the reference's add and rectifier. -/
theorem W6_v49 : W6 m ρ c (Proc.devRef .tc main_v49) = Cert.ReferenceIdeal.Read.val_main_v51 (F := Ideal) x0 x1 x2 x4 x5 := by
  refine ((W6_arr m ρ c 2).trans (RectifyLayer1.array (V5 m ρ) c)).trans ?_
  show RowBias.biasRectify (W5 m ρ c (Proc.devRef .tc main_v47)) (W5 m ρ c (Proc.devRef .tc main_v48)) = _
  rw [W5_v47, W5_v48]
  exact (RowBias.biasRectify_eq_host _ x5).trans rfl

theorem W6_arg6 : W6 m ρ c (Proc.devRef .tc main_arg6) = x6 :=
  (W6_of_ne m ρ c main_arg6 (by decide)).trans
    ((StableHlo.after_of_forall_not_mem _ _ (nowhere_written hostOps1)).trans (W4_arg6 m ρ c))

/-! ## Layer 2 -/

/-- The third region leaves h1 · W2. -/
theorem W7_v50 : W7 m ρ c (Proc.devRef .tc main_v50) = Cert.ReferenceIdeal.Read.val_main_v52 (F := Ideal) x0 x1 x2 x4 x5 x6 := by
  refine ((W7_arr m ρ c 2).trans (ProductLayer2.array (V6 m ρ) c)).trans ?_
  show Cert.ReferenceIdeal.Read.val_main_v34 (F := Ideal) (W6 m ρ c (Proc.devRef .tc main_v49)) (W6 m ρ c (Proc.devRef .tc main_arg6)) = _
  rw [W6_v49, W6_arg6]
  rfl

theorem W8_v63 : W8 m ρ c (Proc.devRef .tc main_v63) = Cert.ReferenceIdeal.Read.val_main_v65 (F := Ideal) x0 x1 x2 x4 x5 x6 := by
  have h50 := W7_v50 m ρ c
  have h3 := W7_v3 m ρ c
  have h6 := W7_v6 m ρ c
  have h33 := W7_v33 m ρ c
  show StableHlo.after hostOps3 (W7 m ρ c) (Proc.devRef .tc main_v63) = _
  generalize W7 m ρ c = V7 at h50 h3 h6 h33 ⊢
  dsimp only [hostOps3]
  after_results_simp
  rw [h50, h3, h6, h33]
  rfl

/-- The bias vector of layer 2, viewed as one row. -/
theorem W8_v64 : W8 m ρ c (Proc.devRef .tc main_v64) = shapeCast S1x128 x7 shapeCasts_S128_S1x128 := by
  have h7 := W7_arg7 m ρ c
  show StableHlo.after hostOps3 (W7 m ρ c) (Proc.devRef .tc main_v64) = _
  generalize W7 m ρ c = V7 at h7 ⊢
  dsimp only [hostOps3]
  after_results_simp
  rw [h7]
  rfl

/-- The fourth region leaves max (aggregate + b2, 0). -/
theorem W9_v65 : W9 m ρ c (Proc.devRef .tc main_v65) = Cert.ReferenceIdeal.Read.val_main_v69 (F := Ideal) x0 x1 x2 x4 x5 x6 x7 := by
  refine ((W9_arr m ρ c 2).trans (RectifyLayer2.array (V8 m ρ) c)).trans ?_
  show RowBias.biasRectify (W8 m ρ c (Proc.devRef .tc main_v63)) (W8 m ρ c (Proc.devRef .tc main_v64)) = _
  rw [W8_v63, W8_v64]
  exact (RowBias.biasRectify_eq_host _ x7).trans rfl

/-! ## Pooling and the readout -/

/-- The host adds each graph's rows and divides by the graph's node count (at least one). -/
theorem W10_v77 : W10 m ρ c (Proc.devRef .tc main_v77) = Cert.ReferenceIdeal.Read.val_main_v81 (F := Ideal) x0 x1 x2 x3 x4 x5 x6 x7 := by
  have h65 := W9_v65 m ρ c
  have h3 := W9_arg3 m ρ c
  show StableHlo.after hostOps4 (W9 m ρ c) (Proc.devRef .tc main_v77) = _
  generalize W9 m ρ c = V9 at h65 h3 ⊢
  dsimp only [hostOps4]
  after_results_simp
  rw [h65, h3]
  rfl

/-- The readout's bias vector, viewed as one row. -/
theorem W10_v78 : W10 m ρ c (Proc.devRef .tc main_v78) = shapeCast S1x16 x9 shapeCasts_S16_S1x16 := by
  have h9 := W9_arg9 m ρ c
  show StableHlo.after hostOps4 (W9 m ρ c) (Proc.devRef .tc main_v78) = _
  generalize W9 m ρ c = V9 at h9 ⊢
  dsimp only [hostOps4]
  after_results_simp
  rw [h9]
  rfl

theorem W10_arg8 : W10 m ρ c (Proc.devRef .tc main_arg8) = x8 :=
  (StableHlo.after_of_forall_not_mem _ _ (nowhere_written hostOps4)).trans (W9_arg8 m ρ c)

/-- pooled · Wfc + bfc, with the bias vector viewed as one row, is the reference's dot_general followed by its add of
    the bias placed along the columns and repeated down the rows. -/
theorem linear_eq_host :
    Readout.linear (Cert.ReferenceIdeal.Read.val_main_v81 (F := Ideal) x0 x1 x2 x3 x4 x5 x6 x7) x8 (shapeCast S1x16 x9 shapeCasts_S16_S1x16)
      = Cert.ReferenceIdeal.Read.val_main_v85 (F := Ideal) x0 x1 x2 x3 x4 x5 x6 x7 x8 x9 := by
  funext i
  rw [Cert.ReferenceIdeal.Read.val_main_v85_apply, Cert.ReferenceIdeal.Read.val_main_v82_apply, Cert.ReferenceIdeal.Read.val_main_v84_apply, Cert.ReferenceIdeal.Read.val_main_v83_apply]
  show (∑ k : Fin 128, Cert.ReferenceIdeal.Read.val_main_v81 (F := Ideal) x0 x1 x2 x3 x4 x5 x6 x7 (Cert.ReferenceIdeal.Read.lidx_main_v82 i k) * x8 (Cert.ReferenceIdeal.Read.ridx_main_v82 i k))
      + shapeCast S1x16 x9 shapeCasts_S16_S1x16 (Readout.rowOf i) = _
  rw [shapeCast_a_1a_apply x9 shapeCasts_S16_S1x16 (0 : Fin 1) (⟨(i 1).val, idx2_lt1 i⟩ : Fin 16)]
  have e : (ix1 (⟨(i 1).val, idx2_lt1 i⟩ : Fin 16) : S16.Idx) = Cert.ReferenceIdeal.Read.idx_main_v83 (Cert.ReferenceIdeal.Read.idx_main_v84 i) :=
    funext fun a => Fin.ext (by match a with | ⟨0, _⟩ => rfl)
  rw [e]
  rfl

/-- THE RESULT: after the last region the result array is the reference's last stage of the launch arguments. -/
theorem W11_v79 : W11 m ρ c (Proc.devRef .tc main_v79)
    = Cert.ReferenceIdeal.Read.val_main_v85 (F := Ideal) x0 x1 x2 x3 x4 x5 x6 x7 x8 x9 := by
  refine ((W11_arr m ρ c 3).trans (Readout.array (V10 m ρ) c)).trans ?_
  show Readout.linear (W10 m ρ c (Proc.devRef .tc main_v77)) (W10 m ρ c (Proc.devRef .tc main_arg8)) (W10 m ρ c (Proc.devRef .tc main_v78)) = _
  rw [W10_v77, W10_arg8, W10_v78]
  exact linear_eq_host m c

end Cert.KernelIdeal.Fold

end
-- ==== Proof.lean ====
/-
  A two-layer graph convolution with mean pooling and a linear readout: the kernel program against its jnp reference,
  at the ideal values (floats are extended reals, every operation exact, a change of float format the identity).

  Both programs compute, from node features x [50000, 128], an edge list with weights, a graph id per node, and
  the weights W1, b1, W2, b2, Wfc, bfc:

      norm  = per-edge weight, self loops appended, scaled by 1 / sqrt (degree) at both ends
      h1    = max (scatter-add over destinations of (x · W1)[source] * norm, + b1, 0)
      h2    = max (scatter-add over destinations of (h1 · W2)[source] * norm, + b2, 0)
      pool  = per-graph sum of h2's rows / max (per-graph node count, 1)
      out   = pool · Wfc + bfc                                                            [500, 16]

  The normalisation, the gathers, the scatter-adds and the pooling are the SAME host operations in both programs,
  operation for operation. They differ at five places only. The reference applies one dot_general for each of
  x · W1, h1 · W2 and pool · Wfc, and an add of the broadcast bias followed by a maximum with zeros; the kernel
  program runs five kernel regions instead: a matrix product tiled over ten blocks of 5000 rows (operands narrowed to
  bf16, which is the identity here, accumulated from the zero word), a fused bias-add-and-rectify over the same ten
  blocks with the bias as a 1 x 128 row, the same two again for layer 2, and a one-block product plus bias row for
  the readout.

  So the proof is: (1) the kernel program's run ends with every buffer at the last of a fold of boundary contents
  (NamedRun); (2) each region's result array, whatever contents it is entered with, is ONE whole-array function of
  its operand arrays — the whole product (ProductLayer1/2), bias row added to every row then the maximum with zero
  (RectifyLayer1/2), the readout (Readout) — because each grid point writes block t of that function and the
  blocks tile the array; a product block's entry is a sum over k of products (Entries), which is what a host
  dot_general reads at that entry; (3) walking the fold back (Fold), every buffer the next step reads equals the
  reference's stage of the same name-for-name operations of the launch arguments, so the result array is the
  reference's last stage; (4) the reference's run ends with its result at that same stage of its own arguments, which
  agree with the kernel program's. No law of the extended reals is needed beyond reading a product as a sum: the two
  sides are the same sums of the same terms, so the precondition (finite inputs) is never opened.

  The three frames: the kernel program's two are its generated frame certificate; the reference's is its run with
  the result dropped. The idealization rewrote no operation, so that conjunct is trivial.
-/
import proofs.«123761_j33397665693792_1_alg».proof.Defs
import proofs.«123761_j33397665693792_1_alg».proof.Proof.Gen.Kernel
import proofs.«123761_j33397665693792_1_alg».proof.Proof.Gen.Kernel.Skeleton
import proofs.«123761_j33397665693792_1_alg».proof.Proof.Gen.Kernel.Launch
import proofs.«123761_j33397665693792_1_alg».proof.Proof.Gen.Kernel.Points
import proofs.«123761_j33397665693792_1_alg».proof.Proof.Gen.Kernel.Frame
import proofs.«123761_j33397665693792_1_alg».proof.Proof.Gen.KernelIdeal
import proofs.«123761_j33397665693792_1_alg».proof.Proof.Gen.KernelIdeal.Skeleton
import proofs.«123761_j33397665693792_1_alg».proof.Proof.Gen.KernelIdeal.Launch
import proofs.«123761_j33397665693792_1_alg».proof.Proof.Gen.KernelIdeal.Points
import proofs.«123761_j33397665693792_1_alg».proof.Proof.Gen.KernelIdeal.Frame
import proofs.«123761_j33397665693792_1_alg».proof.Proof.Gen.ReferenceIdeal
import proofs.«123761_j33397665693792_1_alg».proof.Proof.Gen.Pre_finite_inputs
import proofs.«123761_j33397665693792_1_alg».proof.Proof.Gen.ReferenceIdeal.Run
import proofs.«123761_j33397665693792_1_alg».proof.Proof.Gen.ReferenceIdeal.Read
import proofs.«123761_j33397665693792_1_alg».proof.Proof.NamedRun
import proofs.«123761_j33397665693792_1_alg».proof.Proof.Fold
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs terminate with the same [500, 16] result: the
    reference's last stage of the arguments. -/
theorem algebraic : Cert.algebraic_KernelIdeal_ReferenceIdeal := by
  intro m ρ m' ρ' _ hagree
  refine ⟨fun c => Cert.ReferenceIdeal.Read.val_main_v85 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.NamedRun.run (F := Ideal) m ρ)
    exact ⟨(h c Cert.KernelIdeal.main_v79 (by decide)).trans (Cert.KernelIdeal.Fold.W11_v79 m ρ c),
      (h c Cert.KernelIdeal.main_arg0 (by decide)).trans (Cert.KernelIdeal.Gen.W11_main_arg0 m ρ c),
      (h c Cert.KernelIdeal.main_arg1 (by decide)).trans (Cert.KernelIdeal.Gen.W11_main_arg1 m ρ c),
      (h c Cert.KernelIdeal.main_arg2 (by decide)).trans (Cert.KernelIdeal.Gen.W11_main_arg2 m ρ c),
      (h c Cert.KernelIdeal.main_arg3 (by decide)).trans (Cert.KernelIdeal.Gen.W11_main_arg3 m ρ c),
      (h c Cert.KernelIdeal.main_arg4 (by decide)).trans (Cert.KernelIdeal.Gen.W11_main_arg4 m ρ c),
      (h c Cert.KernelIdeal.main_arg5 (by decide)).trans (Cert.KernelIdeal.Gen.W11_main_arg5 m ρ c),
      (h c Cert.KernelIdeal.main_arg6 (by decide)).trans (Cert.KernelIdeal.Gen.W11_main_arg6 m ρ c),
      (h c Cert.KernelIdeal.main_arg7 (by decide)).trans (Cert.KernelIdeal.Gen.W11_main_arg7 m ρ c),
      (h c Cert.KernelIdeal.main_arg8 (by decide)).trans (Cert.KernelIdeal.Gen.W11_main_arg8 m ρ c),
      (h c Cert.KernelIdeal.main_arg9 (by decide)).trans (Cert.KernelIdeal.Gen.W11_main_arg9 m ρ c)⟩
  · refine (θ_run Cert.ReferenceIdeal.defs _ _).mono (fun r h c => ⟨(h c).1.trans ?_, (h c).2⟩) (Cert.ReferenceIdeal.Value.run (F := Ideal) m' ρ')
    rw [Cert.ReferenceIdeal.Read.val_main_v85_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
